-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x16 .f32) (main_arg5 : FVec F S16 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg4
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x16 : Shape := ⟨2, ![50000, 16]⟩
abbrev S5000x256 : Shape := ⟨2, ![5000, 256]⟩
abbrev S5000x16 : Shape := ⟨2, ![5000, 16]⟩
abbrev S850000x16 : Shape := ⟨2, ![850000, 16]⟩
abbrev S1x16 : Shape := ⟨2, ![1, 16]⟩

abbrev nBuf : Space → Nat
  | .hbm => 91
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S512x256, .bf16⟩
  | .hbm, ⟨47, _⟩ => ⟨S256x16, .bf16⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x16, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x16, .f32⟩
  | .hbm, ⟨81, _⟩ => ⟨S850000x1, .f32⟩
  | .hbm, ⟨82, _⟩ => ⟨S850000x16, .f32⟩
  | .hbm, ⟨83, _⟩ => ⟨S850000x16, .f32⟩
  | .hbm, ⟨84, _⟩ => ⟨S_, .f32⟩
  | .hbm, ⟨85, _⟩ => ⟨S50000x16, .f32⟩
  | .hbm, ⟨86, _⟩ => ⟨S850000x1, .i32⟩
  | .hbm, ⟨87, _⟩ => ⟨S50000x16, .f32⟩
  | .hbm, ⟨88, _⟩ => ⟨S1x16, .f32⟩
  | .hbm, ⟨89, _⟩ => ⟨S50000x16, .f32⟩
  | .hbm, ⟨90, _⟩ => ⟨S50000x16, .f32⟩
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S5000x256, .f32⟩
  | .local _ .vmem, ⟨6, _⟩ => ⟨S5000x256, .f32⟩
  | .local _ .vmem, ⟨7, _⟩ => ⟨S256x16, .bf16⟩
  | .local _ .vmem, ⟨8, _⟩ => ⟨S5000x16, .f32⟩
  | .local _ .vmem, ⟨9, _⟩ => ⟨S5000x16, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S5000x16_S5000x16_0_0 : ∀ a, (![0, 0] : Fin 2 → Nat) a + S5000x16.size a ≤ S5000x16.size a
  h_S5000x16 : 0 < S5000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x16_S5000x16_1_0_0_1_n_n_wf : DotDims.WF S5000x256 S256x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x16.size a ≤ S256x16.size a
  hwx1_1 : ∀ i : grid1.Coords, EltTy.bits .bf16 = 32 ∨ (Rect.block (s := S256x16) S256x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S50000x16.size a
  hwx1_2 : ∀ i : grid1.Coords, EltTy.bits .f32 = 32 ∨ (Rect.block (s := S50000x16) S5000x16.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S256x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x16 : Shape := ⟨2, ![50000, 16]⟩
abbrev S850000x16 : Shape := ⟨2, ![850000, 16]⟩
abbrev S1x16 : Shape := ⟨2, ![1, 16]⟩

abbrev nBuf : Space → Nat
  | .hbm => 125
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x16, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x16, .f32⟩
  | .hbm, ⟨115, _⟩ => ⟨S850000x1, .f32⟩
  | .hbm, ⟨116, _⟩ => ⟨S850000x16, .f32⟩
  | .hbm, ⟨117, _⟩ => ⟨S850000x16, .f32⟩
  | .hbm, ⟨118, _⟩ => ⟨S_, .f32⟩
  | .hbm, ⟨119, _⟩ => ⟨S50000x16, .f32⟩
  | .hbm, ⟨120, _⟩ => ⟨S850000x1, .i32⟩
  | .hbm, ⟨121, _⟩ => ⟨S50000x16, .f32⟩
  | .hbm, ⟨122, _⟩ => ⟨S1x16, .f32⟩
  | .hbm, ⟨123, _⟩ => ⟨S50000x16, .f32⟩
  | .hbm, ⟨124, _⟩ => ⟨S50000x16, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x16_S50000x16_1_0_0_1_n_n_wf : DotDims.WF S50000x256 S256x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
/-
  The idealized kernel program's run with its RESULT named.

  The program is six stretches of host operations around two matrix-product regions.  Every weakly fair execution
  terminates without a fault, and in the final state each buffer that no scope hides holds what the fold of the
  segments leaves there: a host stretch rewrites the buffers its operations write, a region rewrites its output
  array with the blocks its grid points write back.  Read at the result buffer this is the value the algebraic claim
  is about; read at the six arguments it is the launch memory, since no segment writes an argument.
-/
import proofs.«135651_j3332894622188_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the six
    arguments as launched. -/
theorem run_result : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.MatProd.lean ====
/-
  The rows-by-columns product of two rank-2 arrays on the extended reals, index by index: entry (p, e) is the sum
  over the contracted coordinate j of A[p, j] · B[j, e].  Both programs of this certificate compute exactly this at
  their two dense layers — the kernel block of rows by block of rows on the matrix unit into a zero accumulator, the
  reference as one host contraction — so it is the one function both sides are read against.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

/-- Entry (p, e) of the product: the sum over j of A[p, j] · B[j, e]. -/
def rowsByCols {m k n : ℕ} {φ₁ φ₂ : FTy} (A : FVec Ideal ⟨2, ![m, k]⟩ φ₁) (B : FVec Ideal ⟨2, ![k, n]⟩ φ₂) :
    FVec Ideal ⟨2, ![m, n]⟩ .f32 :=
  fun i => ∑ j : Fin k, A (ix2 (i 0) j) * B (ix2 j (i 1))

theorem rowsByCols_apply {m k n : ℕ} {φ₁ φ₂ : FTy} (A : FVec Ideal ⟨2, ![m, k]⟩ φ₁) (B : FVec Ideal ⟨2, ![k, n]⟩ φ₂)
    (p : Fin m) (e : Fin n) : rowsByCols A B (ix2 p e) = ∑ j : Fin k, A (ix2 p j) * B (ix2 j e) := rfl

end Cert.MatProd

end
-- ==== Proof.Region0.lean ====
/-
  What matrix-product region 0 leaves in its output array.

  The region's grid has 25 points; point t reads rows 2000·t … 2000·t + 1999 of its [50000, 512] operand (all 512 columns), the whole
  [512, 256] weight array, and writes rows 2000·t … 2000·t + 1999 of the [50000, 256] output.  The body rounds the row block to the
  weights' format (the identity on the extended reals) and multiplies into a zero accumulator, so entry (p, e) of the
  block it stores is the sum over j of block[p, j] · W[j, e].  Row 2000·t + p of the operand IS row p of block t, so what point
  t writes back is block t of the whole rows-by-columns product, and since row r lies in block r / 2000 the blocks cover the
  output: after the region the output array is the product of the operand array by the weight array.
-/
import proofs.«135651_j3332894622188_1_alg».proof.Proof.Gen.KernelIdeal.Frame
import proofs.«135651_j3332894622188_1_alg».proof.Proof.LibDot
import proofs.«135651_j3332894622188_1_alg».proof.Proof.MatProd
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Region0

open Cert.KernelIdeal Cert.KernelIdeal.Gen Cert.KernelIdeal.Facts₀
open Idealize.ShloMosaic Idealize.ShloMosaic.TcCoe Idealize.SL.Sem Idealize.ShloMosaic.ValueIdx
open Idealize.ShloMosaic.Pipeline (Dat)
open Cert.MatProd

variable (V : (c : Dev nD) → (b : Ref sig .tc) → Buf (Elt Ideal) ((c : Thread nD τ).loc b))

theorem hz : (![0, 0] : Fin 2 → Nat) = fun _ => 0 := funext fun a => by fin_cases a <;> rfl

/-! ## Where the block product's dimension numbers send an output index and a contraction index -/

theorem lhs_0 (i : S2000x256.Idx) (q : dot_S2000x512_S512x256_S2000x256_1_0_0_1_n_n.contr.Idx) : (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_1 (i : S2000x256.Idx) (q : dot_S2000x512_S512x256_S2000x256_1_0_0_1_n_n.contr.Idx) : (dot_S2000x512_S512x256_S2000x256_1_0_0_1_n_n.lhsIdx i q 1).val = (q ⟨0, by decide⟩).val :=
  dot_S2000x512_S512x256_S2000x256_1_0_0_1_n_n.lhsIdx_val_of_single rfl i q
theorem rhs_0 (i : S2000x256.Idx) (q : dot_S2000x512_S512x256_S2000x256_1_0_0_1_n_n.contr.Idx) : (dot_S2000x512_S512x256_S2000x256_1_0_0_1_n_n.rhsIdx i q 0).val = (q ⟨0, by decide⟩).val :=
  dot_S2000x512_S512x256_S2000x256_1_0_0_1_n_n.rhsIdx_val_of_single rfl i q
theorem rhs_1 (i : S2000x256.Idx) (q : dot_S2000x512_S512x256_S2000x256_1_0_0_1_n_n.contr.Idx) : (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-! ## The body's stored value at an index -/

/-- Entry (p, e) of what the body stores: the sum over j of block[p, j] · W[j, e] (rounding to the weights' format and the
    shape casts of a shape to itself are the identity). -/
theorem pay_apply (x0 : FVec Ideal S2000x512 .f32) (x1 : FVec Ideal S512x256 .bf16) (p : Fin 2000) (e : Fin 256) :
    k0_pay1 (F := Ideal) x0 x1 (ix2 p e) = ∑ j : Fin 512, x0 (ix2 p j) * x1 (ix2 j e) := by
  unfold k0_pay1
  simp only [shapeCast_self]
  exact LibDot.matmul_zero_apply dot_S2000x512_S512x256_S2000x256_1_0_0_1_n_n rfl rfl lhs_0 lhs_1 rhs_0 rhs_1 none _ _ p e

/-! ## The windows' blocks -/

/-- The printed index maps over the grid: the operand's and the output's blocks move down the rows with the point, the
    weights' block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the operand's block at point t is row 2000·t + p of the operand array. -/
theorem blockA_apply (c : Dev nD) (t : Fin cfg0.N) (x : S2000x512.Idx) (k : S50000x512.Idx)
    (hk0 : (k 0).val = t.val * 2000 + (x 0).val) (hk1 : (k 1).val = (x 1).val) :
    (iblk0 V c 0 t : FVec Ideal S2000x512 .f32) x = (V c main_arg0 : FVec Ideal S50000x512 .f32) k := by
  obtain ⟨e0, e1, -⟩ := idx_facts t
  unfold iblk0
  rw [View.read_apply]
  show V c main_arg0 _ = V c main_arg0 _
  refine congrArg _ ?_
  funext a
  apply Fin.ext
  match a with
  | ⟨0, _⟩ => show win0_0.index t 0 * 2000 + 1 * (x 0).val = (k 0).val; rw [e0, hk0]; omega
  | ⟨1, _⟩ => show win0_0.index t 1 * 512 + 1 * (x 1).val = (k 1).val; rw [e1, hk1]; omega

/-- The weights' block at every point is the weight array. -/
theorem blockB_apply (c : Dev nD) (t : Fin cfg0.N) (x : S512x256.Idx) :
    (iblk0 V c 1 t : FVec Ideal S512x256 .bf16) x = (V c main_v30 : FVec Ideal S512x256 .bf16) x := by
  obtain ⟨-, -, e2, e3, -⟩ := idx_facts t
  unfold iblk0
  rw [View.read_apply]
  show V c main_v30 _ = V c main_v30 _
  refine congrArg _ ?_
  funext a
  apply Fin.ext
  match a with
  | ⟨0, _⟩ => show win0_1.index t 0 * 512 + 1 * (x 0).val = (x 0).val; rw [e2]; omega
  | ⟨1, _⟩ => show win0_1.index t 1 * 256 + 1 * (x 1).val = (x 1).val; rw [e3]; omega

/-! ## What a point writes back, the cover, the array -/

/-- What point t writes back is block t of the product of the operand array by the weight array. -/
theorem flushed_eq (c : Dev nD) (t : Fin cfg0.N) :
    (dat0 V c).flushed 2 t = ((cfg0.win 2).blk t).view.read (Elt Ideal)
      (rowsByCols (φ₁ := .f32) (φ₂ := .bf16) (V c main_arg0 : FVec Ideal S50000x512 .f32) (V c main_v30 : FVec Ideal S512x256 .bf16)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  funext y
  obtain ⟨p, e, rfl⟩ : ∃ (p : Fin 2000) (e : Fin 256), y = ix2 p e := ⟨y 0, y 1, eq_ix2 y⟩
  obtain ⟨-, -, -, -, e4, e5⟩ := idx_facts t
  show k0_pay1 (iblk0 V c 0 t) (iblk0 V c 1 t) (ix2 p e)
    = rowsByCols (φ₁ := .f32) (φ₂ := .bf16) (V c main_arg0 : FVec Ideal S50000x512 .f32) (V c main_v30 : FVec Ideal S512x256 .bf16) (((cfg0.win 2).blk t).view.emb (ix2 p e))
  refine (pay_apply _ _ p e).trans ?_
  unfold rowsByCols
  refine Finset.sum_congr rfl fun j _ => ?_
  have hA := blockA_apply V c t (ix2 p j) (ix2 ((((cfg0.win 2).blk t).view.emb (ix2 p e)) 0) j)
    (by show win0_2.index t 0 * 2000 + 1 * p.val = t.val * 2000 + p.val; rw [e4]; omega) rfl
  have hB := blockB_apply V c t (ix2 j e)
  have hi : (ix2 j ((((cfg0.win 2).blk t).view.emb (ix2 p e)) 1) : S512x256.Idx) = ix2 j e := by
    funext a
    apply Fin.ext
    match a with
    | ⟨0, _⟩ => rfl
    | ⟨1, _⟩ => show win0_2.index t 1 * 256 + 1 * e.val = e.val; rw [e5]; omega
  rw [hi]
  exact congrArg₂ (· * ·) hA hB

/-- An index of the output array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- Row r of the output is in the block of point r / 2000. -/
theorem cover (i : S50000x256.Idx) : ∃ t : Fin cfg0.N, (cfg0.win 2).flush t = true ∧ i ∈ ((cfg0.win 2).blk t).view.set := by
  have h0 : (i 0).val < 50000 := (i 0).isLt
  have h1 : (i 1).val < 256 := (i 1).isLt
  have hN : cfg0.N = 25 := N_0
  obtain ⟨-, -, -, -, e4, e5⟩ := idx_facts ⟨(i 0).val / 2000, by rw [hN]; omega⟩
  refine ⟨⟨(i 0).val / 2000, by rw [hN]; omega⟩, flush0_2 _, ?_⟩
  rw [mem_blk]
  intro a
  match a with
  | ⟨0, _⟩ =>
    show win0_2.index ⟨(i 0).val / 2000, _⟩ 0 * 2000 ≤ (i 0).val ∧ (i 0).val < win0_2.index ⟨(i 0).val / 2000, _⟩ 0 * 2000 + 2000
    rw [e4]; show (i 0).val / 2000 * 2000 ≤ (i 0).val ∧ (i 0).val < (i 0).val / 2000 * 2000 + 2000; omega
  | ⟨1, _⟩ =>
    show win0_2.index ⟨(i 0).val / 2000, _⟩ 1 * 256 ≤ (i 1).val ∧ (i 1).val < win0_2.index ⟨(i 0).val / 2000, _⟩ 1 * 256 + 256
    rw [e5]; omega

/-- After the region its output array is the product of the operand array by the weight array, as the region found them. -/
theorem array_eq (c : Dev nD) :
    (dat0 V c).arrAt 2 cfg0.N = rowsByCols (φ₁ := .f32) (φ₂ := .bf16) (V c main_arg0 : FVec Ideal S50000x512 .f32) (V c main_v30 : FVec Ideal S512x256 .bf16) :=
  (dat0 V c).arrAt_eq_of_cover 2 _ (fun t _ => flushed_eq V c t) cover

end Cert.KernelIdeal.Hand.Region0

end
-- ==== Proof.Region1.lean ====
/-
  What matrix-product region 1 leaves in its output array.

  The region's grid has 10 points; point t reads rows 5000·t … 5000·t + 4999 of its [50000, 256] operand (all 256 columns), the whole
  [256, 16] weight array, and writes rows 5000·t … 5000·t + 4999 of the [50000, 16] output.  The body rounds the row block to the
  weights' format (the identity on the extended reals) and multiplies into a zero accumulator, so entry (p, e) of the
  block it stores is the sum over j of block[p, j] · W[j, e].  Row 5000·t + p of the operand IS row p of block t, so what point
  t writes back is block t of the whole rows-by-columns product, and since row r lies in block r / 5000 the blocks cover the
  output: after the region the output array is the product of the operand array by the weight array.
-/
import proofs.«135651_j3332894622188_1_alg».proof.Proof.Gen.KernelIdeal.Frame
import proofs.«135651_j3332894622188_1_alg».proof.Proof.LibDot
import proofs.«135651_j3332894622188_1_alg».proof.Proof.MatProd
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Region1

open Cert.KernelIdeal Cert.KernelIdeal.Gen Cert.KernelIdeal.Facts₀
open Idealize.ShloMosaic Idealize.ShloMosaic.TcCoe Idealize.SL.Sem Idealize.ShloMosaic.ValueIdx
open Idealize.ShloMosaic.Pipeline (Dat)
open Cert.MatProd

variable (V : (c : Dev nD) → (b : Ref sig .tc) → Buf (Elt Ideal) ((c : Thread nD τ).loc b))

theorem hz : (![0, 0] : Fin 2 → Nat) = fun _ => 0 := funext fun a => by fin_cases a <;> rfl

/-! ## Where the block product's dimension numbers send an output index and a contraction index -/

theorem lhs_0 (i : S5000x16.Idx) (q : dot_S5000x256_S256x16_S5000x16_1_0_0_1_n_n.contr.Idx) : (dot_S5000x256_S256x16_S5000x16_1_0_0_1_n_n.lhsIdx i q 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem lhs_1 (i : S5000x16.Idx) (q : dot_S5000x256_S256x16_S5000x16_1_0_0_1_n_n.contr.Idx) : (dot_S5000x256_S256x16_S5000x16_1_0_0_1_n_n.lhsIdx i q 1).val = (q ⟨0, by decide⟩).val :=
  dot_S5000x256_S256x16_S5000x16_1_0_0_1_n_n.lhsIdx_val_of_single rfl i q
theorem rhs_0 (i : S5000x16.Idx) (q : dot_S5000x256_S256x16_S5000x16_1_0_0_1_n_n.contr.Idx) : (dot_S5000x256_S256x16_S5000x16_1_0_0_1_n_n.rhsIdx i q 0).val = (q ⟨0, by decide⟩).val :=
  dot_S5000x256_S256x16_S5000x16_1_0_0_1_n_n.rhsIdx_val_of_single rfl i q
theorem rhs_1 (i : S5000x16.Idx) (q : dot_S5000x256_S256x16_S5000x16_1_0_0_1_n_n.contr.Idx) : (dot_S5000x256_S256x16_S5000x16_1_0_0_1_n_n.rhsIdx i q 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

/-! ## The body's stored value at an index -/

/-- Entry (p, e) of what the body stores: the sum over j of block[p, j] · W[j, e] (rounding to the weights' format and the
    shape casts of a shape to itself are the identity). -/
theorem pay_apply (x0 : FVec Ideal S5000x256 .f32) (x1 : FVec Ideal S256x16 .bf16) (p : Fin 5000) (e : Fin 16) :
    k1_pay1 (F := Ideal) x0 x1 (ix2 p e) = ∑ j : Fin 256, x0 (ix2 p j) * x1 (ix2 j e) := by
  unfold k1_pay1
  simp only [shapeCast_self]
  exact LibDot.matmul_zero_apply dot_S5000x256_S256x16_S5000x16_1_0_0_1_n_n rfl rfl lhs_0 lhs_1 rhs_0 rhs_1 none _ _ p e

/-! ## The windows' blocks -/

/-- The printed index maps over the grid: the operand's and the output's blocks move down the rows with the point, the
    weights' block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the operand's block at point t is row 5000·t + p of the operand array. -/
theorem blockA_apply (c : Dev nD) (t : Fin cfg1.N) (x : S5000x256.Idx) (k : S50000x256.Idx)
    (hk0 : (k 0).val = t.val * 5000 + (x 0).val) (hk1 : (k 1).val = (x 1).val) :
    (iblk1 V c 0 t : FVec Ideal S5000x256 .f32) x = (V c main_v49 : FVec Ideal S50000x256 .f32) k := by
  obtain ⟨e0, e1, -⟩ := idx_facts t
  unfold iblk1
  rw [View.read_apply]
  show V c main_v49 _ = V c main_v49 _
  refine congrArg _ ?_
  funext a
  apply Fin.ext
  match a with
  | ⟨0, _⟩ => show win1_0.index t 0 * 5000 + 1 * (x 0).val = (k 0).val; rw [e0, hk0]; omega
  | ⟨1, _⟩ => show win1_0.index t 1 * 256 + 1 * (x 1).val = (k 1).val; rw [e1, hk1]; omega

/-- The weights' block at every point is the weight array. -/
theorem blockB_apply (c : Dev nD) (t : Fin cfg1.N) (x : S256x16.Idx) :
    (iblk1 V c 1 t : FVec Ideal S256x16 .bf16) x = (V c main_v31 : FVec Ideal S256x16 .bf16) x := by
  obtain ⟨-, -, e2, e3, -⟩ := idx_facts t
  unfold iblk1
  rw [View.read_apply]
  show V c main_v31 _ = V c main_v31 _
  refine congrArg _ ?_
  funext a
  apply Fin.ext
  match a with
  | ⟨0, _⟩ => show win1_1.index t 0 * 256 + 1 * (x 0).val = (x 0).val; rw [e2]; omega
  | ⟨1, _⟩ => show win1_1.index t 1 * 16 + 1 * (x 1).val = (x 1).val; rw [e3]; omega

/-! ## What a point writes back, the cover, the array -/

/-- What point t writes back is block t of the product of the operand array by the weight array. -/
theorem flushed_eq (c : Dev nD) (t : Fin cfg1.N) :
    (dat1 V c).flushed 2 t = ((cfg1.win 2).blk t).view.read (Elt Ideal)
      (rowsByCols (φ₁ := .f32) (φ₂ := .bf16) (V c main_v49 : FVec Ideal S50000x256 .f32) (V c main_v31 : FVec Ideal S256x16 .bf16)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x16) hz]
  funext y
  obtain ⟨p, e, rfl⟩ : ∃ (p : Fin 5000) (e : Fin 16), y = ix2 p e := ⟨y 0, y 1, eq_ix2 y⟩
  obtain ⟨-, -, -, -, e4, e5⟩ := idx_facts t
  show k1_pay1 (iblk1 V c 0 t) (iblk1 V c 1 t) (ix2 p e)
    = rowsByCols (φ₁ := .f32) (φ₂ := .bf16) (V c main_v49 : FVec Ideal S50000x256 .f32) (V c main_v31 : FVec Ideal S256x16 .bf16) (((cfg1.win 2).blk t).view.emb (ix2 p e))
  refine (pay_apply _ _ p e).trans ?_
  unfold rowsByCols
  refine Finset.sum_congr rfl fun j _ => ?_
  have hA := blockA_apply V c t (ix2 p j) (ix2 ((((cfg1.win 2).blk t).view.emb (ix2 p e)) 0) j)
    (by show win1_2.index t 0 * 5000 + 1 * p.val = t.val * 5000 + p.val; rw [e4]; omega) rfl
  have hB := blockB_apply V c t (ix2 j e)
  have hi : (ix2 j ((((cfg1.win 2).blk t).view.emb (ix2 p e)) 1) : S256x16.Idx) = ix2 j e := by
    funext a
    apply Fin.ext
    match a with
    | ⟨0, _⟩ => rfl
    | ⟨1, _⟩ => show win1_2.index t 1 * 16 + 1 * e.val = e.val; rw [e5]; omega
  rw [hi]
  exact congrArg₂ (· * ·) hA hB

/-- An index of the output array is in point t's block iff each coordinate is in the block's range on its axis. -/
theorem mem_blk (t : Fin cfg1.N) (i : S50000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v50).slice (win1_2.rect t)).set ↔ _
  rw [View.set_slice_whole, Rect.mem_set_unit]
  exact Iff.rfl

/-- Row r of the output is in the block of point r / 5000. -/
theorem cover (i : S50000x16.Idx) : ∃ t : Fin cfg1.N, (cfg1.win 2).flush t = true ∧ i ∈ ((cfg1.win 2).blk t).view.set := by
  have h0 : (i 0).val < 50000 := (i 0).isLt
  have h1 : (i 1).val < 16 := (i 1).isLt
  have hN : cfg1.N = 10 := N_1
  obtain ⟨-, -, -, -, e4, e5⟩ := idx_facts ⟨(i 0).val / 5000, by rw [hN]; omega⟩
  refine ⟨⟨(i 0).val / 5000, by rw [hN]; omega⟩, flush1_2 _, ?_⟩
  rw [mem_blk]
  intro a
  match a with
  | ⟨0, _⟩ =>
    show win1_2.index ⟨(i 0).val / 5000, _⟩ 0 * 5000 ≤ (i 0).val ∧ (i 0).val < win1_2.index ⟨(i 0).val / 5000, _⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, _⟩ 1 * 16 ≤ (i 1).val ∧ (i 1).val < win1_2.index ⟨(i 0).val / 5000, _⟩ 1 * 16 + 16
    rw [e5]; omega

/-- After the region its output array is the product of the operand array by the weight array, as the region found them. -/
theorem array_eq (c : Dev nD) :
    (dat1 V c).arrAt 2 cfg1.N = rowsByCols (φ₁ := .f32) (φ₂ := .bf16) (V c main_v49 : FVec Ideal S50000x256 .f32) (V c main_v31 : FVec Ideal S256x16 .bf16) :=
  (dat1 V c).arrAt_eq_of_cover 2 _ (fun t _ => flushed_eq V c t) cover

end Cert.KernelIdeal.Hand.Region1

end
-- ==== Proof.HostReads.lean ====
/-
  The host stretches of the kernel program, read as functions of what they start from.

  The kernel's host code is the reference's own graph convolution around the two dense products: from the edge list it
  builds the source and target index vectors (each edge end followed by every node, for the self loops), the degree of
  every node as a scatter-add of ones, its inverse square root where positive, and the edge weight as the product of the
  two ends' values; each layer then gathers the dense product's rows at the sources, scales them by the edge weights,
  scatter-adds them at the targets and adds the bias; the first layer is rectified.  Every one of these stages is, operation
  for operation, a stage of the reference, so each buffer a later segment reads is stated here as that reference stage of the
  buffers the stretch started from, whatever those hold.
-/
import proofs.«135651_j3332894622188_1_alg».proof.Proof.Gen.KernelIdeal.Launch
import proofs.«135651_j3332894622188_1_alg».proof.Proof.RefRead
import Idealize.ShloMosaic.Lib.StableHlo.Run

set_option maxRecDepth 16384

noncomputable section

namespace Cert.KernelIdeal.Hand.Host

open Cert.KernelIdeal Cert.KernelIdeal.Gen Cert.KernelIdeal.Facts₀
open Cert.ReferenceIdeal.ReadP
open Idealize.ShloMosaic Idealize.ShloMosaic.TcCoe Idealize.SL.Sem Idealize.ShloMosaic.StableHlo

variable {F : FTy → Type} [FloatOps F]
variable (U : Valuation τ sig (Elt F))

/-! ## Before the first product: index vectors, edge weights, rounded weights -/

/-- The source index vector: each edge's source, then every node. -/
theorem pre_src : after hostOps0_2 (after hostOps0_1 (after hostOps0 U)) (Proc.devRef .tc main_v5)
    = val_main_v6 (F := F) (U (Proc.devRef .tc main_arg1)) := by
  dsimp only [hostOps0, hostOps0_1, hostOps0_2]
  after_results_simp <;> rfl

/-- The target index vector: each edge's target, then every node. -/
theorem pre_dst : after hostOps0_2 (after hostOps0_1 (after hostOps0 U)) (Proc.devRef .tc main_v6)
    = val_main_v7 (F := F) (U (Proc.devRef .tc main_arg1)) := by
  dsimp only [hostOps0, hostOps0_1, hostOps0_2]
  after_results_simp <;> rfl

/-- The edge weights: the product of the two ends' inverse square-root degrees. -/
theorem pre_norm : after hostOps0_2 (after hostOps0_1 (after hostOps0 U)) (Proc.devRef .tc main_v29)
    = val_main_v30 (F := F) (U (Proc.devRef .tc main_arg1)) := by
  dsimp only [hostOps0, hostOps0_1, hostOps0_2]
  after_results_simp <;> rfl

/-- The first layer's weights, rounded. -/
theorem pre_w1 : after hostOps0_2 (after hostOps0_1 (after hostOps0 U)) (Proc.devRef .tc main_v30)
    = truncf .bf16 (U (Proc.devRef .tc main_arg2)) Facts₀.bitsLt_bf16_f32 := by
  dsimp only [hostOps0, hostOps0_1, hostOps0_2]
  after_results_simp <;> rfl

/-- The second layer's weights, rounded. -/
theorem pre_w2 : after hostOps0_2 (after hostOps0_1 (after hostOps0 U)) (Proc.devRef .tc main_v31)
    = truncf .bf16 (U (Proc.devRef .tc main_arg4)) Facts₀.bitsLt_bf16_f32 := by
  dsimp only [hostOps0, hostOps0_1, hostOps0_2]
  after_results_simp <;> rfl

/-- No operation before the first product writes the features or a bias. -/
theorem pre_arg0 : after hostOps0_2 (after hostOps0_1 (after hostOps0 U)) (Proc.devRef .tc main_arg0) = U (Proc.devRef .tc main_arg0) := by
  dsimp only [hostOps0, hostOps0_1, hostOps0_2]
  after_results_simp <;> rfl
theorem pre_arg3 : after hostOps0_2 (after hostOps0_1 (after hostOps0 U)) (Proc.devRef .tc main_arg3) = U (Proc.devRef .tc main_arg3) := by
  dsimp only [hostOps0, hostOps0_1, hostOps0_2]
  after_results_simp <;> rfl
theorem pre_arg5 : after hostOps0_2 (after hostOps0_1 (after hostOps0 U)) (Proc.devRef .tc main_arg5) = U (Proc.devRef .tc main_arg5) := by
  dsimp only [hostOps0, hostOps0_1, hostOps0_2]
  after_results_simp <;> rfl

/-! ## Between the products: the first layer's aggregation, bias and rectifier -/

/-- From the first dense product and the index vectors and edge weights: the first layer's rectified output. -/
theorem mid_out (x0 : (⟨Cert.ReferenceIdeal.S50000x512, .f32⟩ : BufTy).Contents (Elt F)) (x1 : (⟨Cert.ReferenceIdeal.S2x800000, .i32⟩ : BufTy).Contents (Elt F))
    (x2 : (⟨Cert.ReferenceIdeal.S512x256, .f32⟩ : BufTy).Contents (Elt F))
    (hh : U (Proc.devRef .tc main_v32) = val_main_v4 (F := F) x0 x2)
    (hs : U (Proc.devRef .tc main_v5) = val_main_v6 (F := F) x1) (hd : U (Proc.devRef .tc main_v6) = val_main_v7 (F := F) x1)
    (hn : U (Proc.devRef .tc main_v29) = val_main_v30 (F := F) x1) :
    after hostOps1_1 (after hostOps1 U) (Proc.devRef .tc main_v49) = val_main_v47 (F := F) x0 x1 x2 (U (Proc.devRef .tc main_arg3)) := by
  dsimp only [hostOps1, hostOps1_1]
  after_results_simp
  rw [hh, hs, hd, hn]
  rfl

/-- The stretch between the products writes none of the buffers the second layer still reads. -/
theorem mid_src : after hostOps1_1 (after hostOps1 U) (Proc.devRef .tc main_v5) = U (Proc.devRef .tc main_v5) := by
  dsimp only [hostOps1, hostOps1_1]
  after_results_simp <;> rfl
theorem mid_dst : after hostOps1_1 (after hostOps1 U) (Proc.devRef .tc main_v6) = U (Proc.devRef .tc main_v6) := by
  dsimp only [hostOps1, hostOps1_1]
  after_results_simp <;> rfl
theorem mid_norm : after hostOps1_1 (after hostOps1 U) (Proc.devRef .tc main_v29) = U (Proc.devRef .tc main_v29) := by
  dsimp only [hostOps1, hostOps1_1]
  after_results_simp <;> rfl
theorem mid_w2 : after hostOps1_1 (after hostOps1 U) (Proc.devRef .tc main_v31) = U (Proc.devRef .tc main_v31) := by
  dsimp only [hostOps1, hostOps1_1]
  after_results_simp <;> rfl
theorem mid_arg5 : after hostOps1_1 (after hostOps1 U) (Proc.devRef .tc main_arg5) = U (Proc.devRef .tc main_arg5) := by
  dsimp only [hostOps1, hostOps1_1]
  after_results_simp <;> rfl

/-! ## After the second product: the second layer's aggregation and bias -/

/-- From the second dense product and the index vectors and edge weights (in the names the reference gives its second
    computation of them): the result. -/
theorem tail_out (x0 : (⟨Cert.ReferenceIdeal.S50000x512, .f32⟩ : BufTy).Contents (Elt F)) (x1 : (⟨Cert.ReferenceIdeal.S2x800000, .i32⟩ : BufTy).Contents (Elt F))
    (x2 : (⟨Cert.ReferenceIdeal.S512x256, .f32⟩ : BufTy).Contents (Elt F)) (x3 : (⟨Cert.ReferenceIdeal.S256, .f32⟩ : BufTy).Contents (Elt F))
    (x4 : (⟨Cert.ReferenceIdeal.S256x16, .f32⟩ : BufTy).Contents (Elt F))
    (hh : U (Proc.devRef .tc main_v50) = val_main_v48 (F := F) x0 x1 x2 x3 x4)
    (hs : U (Proc.devRef .tc main_v5) = val_main_v50 (F := F) x1) (hd : U (Proc.devRef .tc main_v6) = val_main_v51 (F := F) x1)
    (hn : U (Proc.devRef .tc main_v29) = val_main_v74 (F := F) x1) :
    after hostOps2 U (Proc.devRef .tc main_v66) = val_main_v90 (F := F) x0 x1 x2 x3 x4 (U (Proc.devRef .tc main_arg5)) := by
  dsimp only [hostOps2]
  after_results_simp
  rw [hh, hs, hd, hn]
  rfl

/-! ## The reference computes the index vectors and the edge weights twice, from the same edge list -/

theorem src_again (x1 : (⟨Cert.ReferenceIdeal.S2x800000, .i32⟩ : BufTy).Contents (Elt F)) : val_main_v50 (F := F) x1 = val_main_v6 (F := F) x1 := rfl
theorem dst_again (x1 : (⟨Cert.ReferenceIdeal.S2x800000, .i32⟩ : BufTy).Contents (Elt F)) : val_main_v51 (F := F) x1 = val_main_v7 (F := F) x1 := rfl
theorem norm_again (x1 : (⟨Cert.ReferenceIdeal.S2x800000, .i32⟩ : BufTy).Contents (Elt F)) : val_main_v74 (F := F) x1 = val_main_v30 (F := F) x1 := rfl

end Cert.KernelIdeal.Hand.Host

end
-- ==== Proof.Bridge.lean ====
/-
  The rows-by-columns product is what the reference's two host contractions compute.

  On the extended reals the reference's contraction of a [50000, K] array with a [K, N] array over the shared axis is,
  at (p, e), the sum over j of A[p, j] · B[j, e]: the rows-by-columns product.  The kernel hands its matrix-product regions
  the weights rounded to a narrower float format; on the extended reals that rounding is the identity, so the product with
  the rounded weights is the reference's contraction with the weights themselves — at the first layer on the node features,
  at the second on the first layer's rectified output.
-/
import proofs.«135651_j3332894622188_1_alg».proof.Proof.MatProd
import proofs.«135651_j3332894622188_1_alg».proof.Proof.RefRead

noncomputable section

open scoped BigOperators

namespace Cert.Bridge

open Cert.ReferenceIdeal Cert.ReferenceIdeal.ReadP Cert.ReferenceIdeal.Facts₀
open Idealize.ShloMosaic Idealize.ShloMosaic.TcCoe Idealize.ShloMosaic.ValueIdx
open Cert.MatProd

/-- First layer: features by (rounded) weights is the reference's first contraction. -/
theorem prod_layer1 (x0 : FVec Ideal S50000x512 .f32) (x2 : FVec Ideal S512x256 .f32) (h : FTy.bits .bf16 < FTy.bits .f32) :
    rowsByCols (φ₁ := .f32) (φ₂ := .bf16) x0 (truncf .bf16 x2 h) = val_main_v4 (F := Ideal) x0 x2 := by
  funext i
  rw [val_main_v4_apply]
  unfold rowsByCols
  refine Finset.sum_congr rfl fun k _ => ?_
  have el : lidx_main_v4 i k = ix2 (i 0) k := funext fun a => by
    match a with
    | ⟨0, _⟩ => rfl
    | ⟨1, _⟩ => rfl
  have er : ridx_main_v4 i k = ix2 k (i 1) := funext fun a => by
    match a with
    | ⟨0, _⟩ => rfl
    | ⟨1, _⟩ => rfl
  rw [el, er]
  rfl

/-- Second layer: the rectified first layer by (rounded) weights is the reference's second contraction. -/
theorem prod_layer2 (x0 : FVec Ideal S50000x512 .f32) (x1 : IVec S2x800000 32) (x2 : FVec Ideal S512x256 .f32)
    (x3 : FVec Ideal S256 .f32) (x4 : FVec Ideal S256x16 .f32) (h : FTy.bits .bf16 < FTy.bits .f32) :
    rowsByCols (φ₁ := .f32) (φ₂ := .bf16) (val_main_v47 (F := Ideal) x0 x1 x2 x3 : FVec Ideal S50000x256 .f32) (truncf .bf16 x4 h)
      = val_main_v48 (F := Ideal) x0 x1 x2 x3 x4 := by
  funext i
  rw [val_main_v48_apply]
  unfold rowsByCols
  refine Finset.sum_congr rfl fun k _ => ?_
  have el : lidx_main_v48 i k = ix2 (i 0) k := funext fun a => by
    match a with
    | ⟨0, _⟩ => rfl
    | ⟨1, _⟩ => rfl
  have er : ridx_main_v48 i k = ix2 k (i 1) := funext fun a => by
    match a with
    | ⟨0, _⟩ => rfl
    | ⟨1, _⟩ => rfl
  rw [el, er]
  rfl

end Cert.Bridge

end
-- ==== Proof.KernelValue.lean ====
/-
  The value of the kernel program's result, as a function of its six arguments.

  Buffer by buffer through the program's eight segments.  Before the first product the host builds the source and target
  index vectors and the edge weights from the edge list and rounds the two weight matrices; the first region leaves the
  features times the first weights; the stretch after it aggregates along the edges, adds the first bias and rectifies; the
  second region leaves that times the second weights; the last stretch aggregates again and adds the second bias.  A region
  changes only its output array and a host stretch only the buffers its operations write, so the index vectors, the edge
  weights, the rounded second weights and the biases reach the segments that read them as the first stretch left them.
  Each stage is the reference's stage of the same arguments: the result is the reference's last stage.
-/
import proofs.«135651_j3332894622188_1_alg».proof.Proof.Gen.KernelIdeal.Frame
import proofs.«135651_j3332894622188_1_alg».proof.Proof.KernelRun
import proofs.«135651_j3332894622188_1_alg».proof.Proof.Region0
import proofs.«135651_j3332894622188_1_alg».proof.Proof.Region1
import proofs.«135651_j3332894622188_1_alg».proof.Proof.HostReads
import proofs.«135651_j3332894622188_1_alg».proof.Proof.Bridge

set_option maxRecDepth 16384

noncomputable section

namespace Cert.KernelIdeal.Hand

open Cert.KernelIdeal Cert.KernelIdeal.Gen Cert.KernelIdeal.Facts₀
open Cert.ReferenceIdeal.ReadP
open Idealize.ShloMosaic Idealize.ShloMosaic.TcCoe Idealize.SL.Sem Idealize.ShloMosaic.StableHlo
open Cert.MatProd

variable (m : (ℓ : Loc nD τ sig) → Buf (Elt Ideal) ℓ) (ρ : Dev nD → PrngReg) (c : Dev nD)

/-! ## At the first region's entry -/

theorem in0_src : W3 m ρ c (Proc.devRef .tc main_v5) = val_main_v6 (F := Ideal) (m ((c.tc : Thread nD τ).loc main_arg1)) := Host.pre_src (W0 m ρ c)
theorem in0_dst : W3 m ρ c (Proc.devRef .tc main_v6) = val_main_v7 (F := Ideal) (m ((c.tc : Thread nD τ).loc main_arg1)) := Host.pre_dst (W0 m ρ c)
theorem in0_norm : W3 m ρ c (Proc.devRef .tc main_v29) = val_main_v30 (F := Ideal) (m ((c.tc : Thread nD τ).loc main_arg1)) := Host.pre_norm (W0 m ρ c)
theorem in0_w1 : W3 m ρ c (Proc.devRef .tc main_v30) = truncf (F := Ideal) (s := S512x256) (φ := .f32) .bf16 (m ((c.tc : Thread nD τ).loc main_arg2)) Facts₀.bitsLt_bf16_f32 := Host.pre_w1 (W0 m ρ c)
theorem in0_w2 : W3 m ρ c (Proc.devRef .tc main_v31) = truncf (F := Ideal) (s := S256x16) (φ := .f32) .bf16 (m ((c.tc : Thread nD τ).loc main_arg4)) Facts₀.bitsLt_bf16_f32 := Host.pre_w2 (W0 m ρ c)
theorem in0_arg0 : W3 m ρ c (Proc.devRef .tc main_arg0) = (m ((c.tc : Thread nD τ).loc main_arg0)) := Host.pre_arg0 (W0 m ρ c)
theorem in0_arg3 : W3 m ρ c (Proc.devRef .tc main_arg3) = (m ((c.tc : Thread nD τ).loc main_arg3)) := Host.pre_arg3 (W0 m ρ c)
theorem in0_arg5 : W3 m ρ c (Proc.devRef .tc main_arg5) = (m ((c.tc : Thread nD τ).loc main_arg5)) := Host.pre_arg5 (W0 m ρ c)

/-! ## At the first region's exit -/

/-- The first region's output: the features times the first weights, the reference's first contraction. -/
theorem out0_h : W4 m ρ c (Proc.devRef .tc main_v32) = val_main_v4 (F := Ideal) (m ((c.tc : Thread nD τ).loc main_arg0)) (m ((c.tc : Thread nD τ).loc main_arg2)) := by
  refine (W4_arr m ρ c 2).trans ?_
  refine (Region0.array_eq (V3 m ρ) c).trans ?_
  refine (congrArg₂ (rowsByCols (φ₁ := .f32) (φ₂ := .bf16)) (in0_arg0 m ρ c) (in0_w1 m ρ c)).trans ?_
  exact Cert.Bridge.prod_layer1 _ _ _

/-! ## At the second region's entry -/

/-- The first layer's rectified output. -/
theorem in1_h : W6 m ρ c (Proc.devRef .tc main_v49) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  have h := Host.mid_out (W4 m ρ c) (m ((c.tc : Thread nD τ).loc main_arg0)) (m ((c.tc : Thread nD τ).loc main_arg1)) (m ((c.tc : Thread nD τ).loc main_arg2)) (out0_h m ρ c)
    ((W4_of_ne m ρ c main_v5 (by decide)).trans (in0_src m ρ c))
    ((W4_of_ne m ρ c main_v6 (by decide)).trans (in0_dst m ρ c))
    ((W4_of_ne m ρ c main_v29 (by decide)).trans (in0_norm m ρ c))
  rw [show W4 m ρ c (Proc.devRef .tc main_arg3) = (m ((c.tc : Thread nD τ).loc main_arg3)) from (W4_of_ne m ρ c main_arg3 (by decide)).trans (in0_arg3 m ρ c)] at h
  exact h

theorem in1_src : W6 m ρ c (Proc.devRef .tc main_v5) = val_main_v6 (F := Ideal) (m ((c.tc : Thread nD τ).loc main_arg1)) :=
  (Host.mid_src (W4 m ρ c)).trans ((W4_of_ne m ρ c main_v5 (by decide)).trans (in0_src m ρ c))
theorem in1_dst : W6 m ρ c (Proc.devRef .tc main_v6) = val_main_v7 (F := Ideal) (m ((c.tc : Thread nD τ).loc main_arg1)) :=
  (Host.mid_dst (W4 m ρ c)).trans ((W4_of_ne m ρ c main_v6 (by decide)).trans (in0_dst m ρ c))
theorem in1_norm : W6 m ρ c (Proc.devRef .tc main_v29) = val_main_v30 (F := Ideal) (m ((c.tc : Thread nD τ).loc main_arg1)) :=
  (Host.mid_norm (W4 m ρ c)).trans ((W4_of_ne m ρ c main_v29 (by decide)).trans (in0_norm m ρ c))
theorem in1_w2 : W6 m ρ c (Proc.devRef .tc main_v31) = truncf (F := Ideal) (s := S256x16) (φ := .f32) .bf16 (m ((c.tc : Thread nD τ).loc main_arg4)) Facts₀.bitsLt_bf16_f32 :=
  (Host.mid_w2 (W4 m ρ c)).trans ((W4_of_ne m ρ c main_v31 (by decide)).trans (in0_w2 m ρ c))
theorem in1_arg5 : W6 m ρ c (Proc.devRef .tc main_arg5) = (m ((c.tc : Thread nD τ).loc main_arg5)) :=
  (Host.mid_arg5 (W4 m ρ c)).trans ((W4_of_ne m ρ c main_arg5 (by decide)).trans (in0_arg5 m ρ c))

/-! ## At the second region's exit -/

/-- The second region's output: the rectified first layer times the second weights, the reference's second contraction. -/
theorem out1_h : W7 m ρ c (Proc.devRef .tc main_v50) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  refine (Region1.array_eq (V6 m ρ) c).trans ?_
  refine (congrArg₂ (rowsByCols (φ₁ := .f32) (φ₂ := .bf16)) (in1_h m ρ c) (in1_w2 m ρ c)).trans ?_
  exact Cert.Bridge.prod_layer2 _ _ _ _ _ _

/-! ## The result -/

/-- The result buffer at the last boundary is the reference's last stage of the six arguments. -/
theorem result_eq : W8 m ρ c (Proc.devRef .tc main_v66)
    = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h := Host.tail_out (W7 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (out1_h m ρ c)
    (((W7_of_ne m ρ c main_v5 (by decide)).trans (in1_src m ρ c)).trans (Host.src_again _).symm)
    (((W7_of_ne m ρ c main_v6 (by decide)).trans (in1_dst m ρ c)).trans (Host.dst_again _).symm)
    (((W7_of_ne m ρ c main_v29 (by decide)).trans (in1_norm m ρ c)).trans (Host.norm_again _).symm)
  rw [show W7 m ρ c (Proc.devRef .tc main_arg5) = (m ((c.tc : Thread nD τ).loc main_arg5)) from (W7_of_ne m ρ c main_arg5 (by decide)).trans (in1_arg5 m ρ c)] at h
  exact h

/-- The run, read: the result at the reference's last stage of the arguments, the arguments unchanged. -/
theorem run_value : θ_run defs (onTc (τ := τ) (main (F := Ideal))) ⟨m, fun _ => 0, ρ⟩ (fun r => ∀ c : Dev nD,
      r.2.mem ((c.tc : Thread nD τ).loc main_v66) = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_result m ρ)

end Cert.KernelIdeal.Hand

end
-- ==== Proof.lean ====
/-
  A two-layer graph convolution over 50000 nodes and 800000 edges: each layer multiplies the node rows by a weight matrix,
  gathers the product's rows at every edge's source (and, for the self loops, at every node), scales them by the edge's
  weight — the product of the inverse square-root degrees of its two ends —, adds them up at the edge's target and adds a bias;
  the first layer's output is rectified.  The kernel program computes the two dense products in matrix-product regions, a
  block of rows per grid point with the operands rounded to a narrower float format, and everything else on the host; the
  reference computes the products as host contractions and builds the index vectors and the edge weights once per layer.

  On the extended reals the rounding is the identity and a product into a zero accumulator is the plain sum over the contracted
  coordinate, so each region leaves exactly the reference's contraction in its output array, and every host stage of the kernel
  program is the same operation as the reference's on the same values; the reference's second computation of the index vectors
  and edge weights is the first one again.  The two results are therefore one function of the six arguments, and no law used
  needs the inputs finite.  The ideal pass rewrote nothing, so there is nothing to preserve.
-/
import proofs.«135651_j3332894622188_1_alg».proof.Defs
import proofs.«135651_j3332894622188_1_alg».proof.Proof.Gen.Kernel
import proofs.«135651_j3332894622188_1_alg».proof.Proof.Gen.Kernel.Skeleton
import proofs.«135651_j3332894622188_1_alg».proof.Proof.Gen.Kernel.Launch
import proofs.«135651_j3332894622188_1_alg».proof.Proof.Gen.Kernel.Points
import proofs.«135651_j3332894622188_1_alg».proof.Proof.Gen.Kernel.Frame
import proofs.«135651_j3332894622188_1_alg».proof.Proof.Gen.KernelIdeal
import proofs.«135651_j3332894622188_1_alg».proof.Proof.Gen.KernelIdeal.Skeleton
import proofs.«135651_j3332894622188_1_alg».proof.Proof.Gen.KernelIdeal.Launch
import proofs.«135651_j3332894622188_1_alg».proof.Proof.Gen.KernelIdeal.Points
import proofs.«135651_j3332894622188_1_alg».proof.Proof.Gen.KernelIdeal.Frame
import proofs.«135651_j3332894622188_1_alg».proof.Proof.Gen.ReferenceIdeal
import proofs.«135651_j3332894622188_1_alg».proof.Proof.Gen.Pre_finite_inputs
import proofs.«135651_j3332894622188_1_alg».proof.Proof.RefRun
import proofs.«135651_j3332894622188_1_alg».proof.Proof.RefRead
import proofs.«135651_j3332894622188_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at the reference's last stage of arguments that agree. -/
theorem algebraic : Cert.algebraic_KernelIdeal_ReferenceIdeal := by
  intro m ρ m' ρ' _ hagree
  refine ⟨fun c => Cert.ReferenceIdeal.ReadP.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v90_eq]
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
